-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel

variable [Facts]

def fn {F : FTy → Type} [FloatOps F] (main_arg0 : FVec F S524288x256 .f32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  main_v3
-- ==== Kernel.lean ====
abbrev S524288x256 : Shape := ⟨2, ![524288, 256]⟩
abbrev S2x1x256 : Shape := ⟨3, ![2, 1, 256]⟩
abbrev S8192x256 : Shape := ⟨2, ![8192, 256]⟩
abbrev S1x1x256 : Shape := ⟨3, ![1, 1, 256]⟩
abbrev S256 : Shape := ⟨1, ![256]⟩
abbrev S1x256 : Shape := ⟨2, ![1, 256]⟩
abbrev S4096x256 : Shape := ⟨2, ![4096, 256]⟩

abbrev nBuf : Space → Nat
  | .hbm => 3
  | .vmem => 9
  | .smem => 0
  | _ => 0

abbrev bufTy : (tb : Table) → Fin (tcTables nBuf tb) → BufTy
  | .hbm, ⟨0, _⟩ => ⟨S524288x256, .f32⟩
  | .hbm, ⟨1, _⟩ => ⟨S2x1x256, .f32⟩
  | .hbm, ⟨2, _⟩ => ⟨S524288x256, .f32⟩
  | .local _ .vmem, ⟨0, _⟩ => ⟨S8192x256, .f32⟩
  | .local _ .vmem, ⟨1, _⟩ => ⟨S8192x256, .f32⟩
  | .local _ .vmem, ⟨2, _⟩ => ⟨S1x1x256, .f32⟩
  | .local _ .vmem, ⟨3, _⟩ => ⟨S1x1x256, .f32⟩
  | .local _ .vmem, ⟨4, _⟩ => ⟨S4096x256, .f32⟩
  | .local _ .vmem, ⟨5, _⟩ => ⟨S4096x256, .f32⟩
  | .local _ .vmem, ⟨6, _⟩ => ⟨S2x1x256, .f32⟩
  | .local _ .vmem, ⟨7, _⟩ => ⟨S4096x256, .f32⟩
  | .local _ .vmem, ⟨8, _⟩ => ⟨S4096x256, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1x256_S1x1x256_0_0_0 : ∀ a, (![0, 0, 0] : Fin 3 → Nat) a + S1x1x256.size a ≤ S1x1x256.size a
  h_S1x1x256 : 0 < S1x1x256.numel
  inb_S8192x256_S8192x256_0_0 : ∀ a, (![0, 0] : Fin 2 → Nat) a + S8192x256.size a ≤ S8192x256.size a
  h_S8192x256 : 0 < S8192x256.numel
  reduces_S8192x256_S256 : S8192x256.Reduces [0] S256
  shapeCasts_S256_S1x256 : S256.ShapeCasts S1x256
  shapeCasts_S1x1x256_S1x1x256 : S1x1x256.ShapeCasts S1x1x256
  shapeCasts_S1x256_S1x1x256 : S1x256.ShapeCasts S1x1x256
  inb_S2x1x256_S1x1x256_0_0_0 : ∀ a, (![0, 0, 0] : Fin 3 → Nat) a + S1x1x256.size a ≤ S2x1x256.size a
  shapeCasts_S1x1x256_S1x256 : S1x1x256.ShapeCasts S1x256
  inb_S2x1x256_S1x1x256_1_0_0 : ∀ a, (![1, 0, 0] : Fin 3 → Nat) a + S1x1x256.size a ≤ S2x1x256.size a
  inb_S4096x256_S4096x256_0_0 : ∀ a, (![0, 0] : Fin 2 → Nat) a + S4096x256.size a ≤ S4096x256.size a
  h_S4096x256 : 0 < S4096x256.numel
  broadcasts_S1x256_S4096x256 : S1x256.Broadcasts S4096x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S524288x256.size a
  hwx0_0 : ∀ i : grid0.Coords, EltTy.bits .f32 = 32 ∨ (Rect.block (s := S524288x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S2x1x256.size a
  hwx0_1 : ∀ i : grid0.Coords, EltTy.bits .f32 = 32 ∨ (Rect.block (s := S2x1x256) S1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S524288x256.size a
  hwx1_0 : ∀ i : grid1.Coords, EltTy.bits .f32 = 32 ∨ (Rect.block (s := S524288x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x256.size a ≤ S2x1x256.size a
  hwx1_1 : ∀ i : grid1.Coords, EltTy.bits .f32 = 32 ∨ (Rect.block (s := S2x1x256) S2x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x256.size a ≤ S524288x256.size a
  hwx1_2 : ∀ i : grid1.Coords, EltTy.bits .f32 = 32 ∨ (Rect.block (s := S524288x256) S4096x256.size (cc1_transform_2 i) (hinb1_2 i)).WholeWords (EltTy.packing .f32)

variable [Facts₀]

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2x1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S524288x256 : Shape := ⟨2, ![524288, 256]⟩
abbrev S_ : Shape := ⟨0, ![]⟩
abbrev S256 : Shape := ⟨1, ![256]⟩
abbrev S1x256 : Shape := ⟨2, ![1, 256]⟩

abbrev nBuf : Space → Nat
  | .hbm => 8
  | .vmem => 0
  | .smem => 0
  | _ => 0

abbrev bufTy : (tb : Table) → Fin (tcTables nBuf tb) → BufTy
  | .hbm, ⟨0, _⟩ => ⟨S524288x256, .f32⟩
  | .hbm, ⟨1, _⟩ => ⟨S524288x256, .f32⟩
  | .hbm, ⟨2, _⟩ => ⟨S_, .f32⟩
  | .hbm, ⟨3, _⟩ => ⟨S256, .f32⟩
  | .hbm, ⟨4, _⟩ => ⟨S256, .f32⟩
  | .hbm, ⟨5, _⟩ => ⟨S1x256, .f32⟩
  | .hbm, ⟨6, _⟩ => ⟨S524288x256, .f32⟩
  | .hbm, ⟨7, _⟩ => ⟨S524288x256, .f32⟩
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  reducesTo_S524288x256_S256_d0 : S524288x256.ReducesTo [0] S256
  h_S_ : 0 < S_.numel
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)

variable [Facts₀]

class Facts : Prop extends Facts₀ where

variable [Facts]
-- ==== Proof.KernelRun.lean ====
/-
  The two-pass program's whole run with its result array named, for any float values.

  `run_named`: from any memory with zero counters every weakly fair execution of the program terminates, nothing
  faulting, with the result array holding what the second pass's write-backs leave of the contents that pass was
  entered with, and the argument as launched. The second pass is entered with the argument unchanged (the first pass only
  reads it: `entry_arg`) and with the array of sums holding what the first pass's write-backs leave (`entry_parts`).
-/
import proofs.«161917_j38027640438785_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, with the result named: the result array ends at what the second pass's write-backs leave, the argument as
    launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_arr m ρ c 2),
        (h c _ (mem_uc main_arg0 (by decide))).trans (W2_main_arg0 m ρ c)⟩)

/-- The second pass finds the argument as launched: the first pass reads it and writes nothing to it. -/
theorem entry_arg (c : Dev nD) : V1 m ρ c main_arg0 = m ((c : Thread nD τ).loc main_arg0) :=
  (W1_arr m ρ c 0).trans (((dat0 (V0 m ρ) c).arrAt_in 0 rfl _).trans (A_eq0 (V0 m ρ) c 0))

/-- The second pass finds the array of sums at what the first pass's write-backs left. -/
theorem entry_parts (c : Dev nD) : V1 m ρ c main_v0 = (dat0 (V0 m ρ) c).arrAt 1 cfg0.N :=
  W1_arr m ρ c 1

end AnyInstance

end Cert.KernelIdeal.Whole

end
-- ==== Proof.Spec.lean ====
/-
  The mathematics the two programs meet in, over the extended reals, with no program in sight.

  The array has 524288 rows and 256 columns. For a column `d` write s(R) for the square of the entry in row `R`.
  One program adds the s(R) over all rows at once; the other cuts the rows into 64 consecutive blocks of 8192 rows,
  adds each block's squares, adds the block sums of blocks 0–31 and of blocks 32–63 separately, and only then adds the
  two halves. Addition of extended reals is commutative and associative (the one irregular value, -∞ + ∞ = -∞,
  does not disturb either law), so the two groupings give one number: `halves_add`. No entry has to be finite for this.

  Sums run over ranges of naturals, the summand set to zero past the last row, so that regrouping is a statement about
  `Finset.range` alone (`sum_range_blocks`); `blockSq_of_rows` and `colSq_of_rows` bring a sum over the rows of a
  block, or of the whole array, into that form.
-/
import Idealize.ShloMosaic.PureOps.Ideal
import Idealize.ShloMosaic.Lib.ValueIdx

noncomputable section

open scoped BigOperators

namespace Cert.ColScale

open Idealize.ShloMosaic Idealize.ShloMosaic.ValueIdx

/-- The contents of the array: 524288 rows of 256 columns. -/
abbrev Mat : Type := (⟨2, ![524288, 256]⟩ : Shape).Idx → EReal

/-- The contents of one block of 8192 consecutive rows. -/
abbrev Blk : Type := (⟨2, ![8192, 256]⟩ : Shape).Idx → EReal

/-- The square of the entry in row `R` of column `d`; zero past the last row, so that a sum over a range of naturals
    needs no bound on its index. -/
def sqAt (X : Mat) (d : Fin 256) (R : ℕ) : EReal :=
  if h : R < 524288 then X (ix2 ⟨R, h⟩ d) * X (ix2 ⟨R, h⟩ d) else 0

/-- At a row of the array it is the entry's square. -/
theorem sqAt_row (X : Mat) (d : Fin 256) (R : Fin 524288) : sqAt X d R.val = X (ix2 R d) * X (ix2 R d) := by
  unfold sqAt
  rw [dif_pos R.isLt]

/-- Column `d`'s squares added over the 8192 rows of block `n` (rows `8192 n … 8192 n + 8191`). -/
def blockSq (X : Mat) (d : Fin 256) (n : ℕ) : EReal :=
  ∑ r ∈ Finset.range 8192, sqAt X d (8192 * n + r)

/-- The block sums of the 32 consecutive blocks from block `b` on, added: half of the rows. -/
def halfSq (X : Mat) (d : Fin 256) (b : ℕ) : EReal :=
  ∑ s ∈ Finset.range 32, blockSq X d (b + s)

/-- Column `d`'s squares added over every row. -/
def colSq (X : Mat) (d : Fin 256) : EReal :=
  ∑ R ∈ Finset.range 524288, sqAt X d R

/-- A sum over `a * b` consecutive naturals is the sum, over `a` consecutive runs of `b`, of each run's sum. -/
theorem sum_range_blocks {β : Type*} [AddCommMonoid β] (f : ℕ → β) (b a : ℕ) :
    ∑ n ∈ Finset.range a, ∑ r ∈ Finset.range b, f (b * n + r) = ∑ R ∈ Finset.range (a * b), f R := by
  induction a with
  | zero => simp
  | succ a ih => rw [Finset.sum_range_succ, ih, add_mul, one_mul, Finset.sum_range_add, Nat.mul_comm b a]

/-- THE LAW THAT JOINS THE TWO SIDES: the sum over blocks 0–31 plus the sum over blocks 32–63 is the sum over all
    524288 = 64 · 8192 rows. -/
theorem halves_add (X : Mat) (d : Fin 256) : halfSq X d 0 + halfSq X d 32 = colSq X d := by
  have h := sum_range_blocks (sqAt X d) 8192 (32 + 32)
  rw [Finset.sum_range_add] at h
  unfold halfSq colSq blockSq
  simp only [zero_add]
  exact h

/-- Column `d`'s squares added down the 8192 rows of a block of rows given by itself. -/
def rowsSq (x : Blk) (d : Fin 256) : EReal := ∑ k : Fin 8192, x (ix2 k d) * x (ix2 k d)

/-- A block of rows that holds rows `8192 n …` of the array (`hx`) has, in column `d`, the block sum of block `n`. -/
theorem blockSq_of_rows (X : Mat) (d : Fin 256) (n : ℕ) (hn : n < 64) (x : Blk)
    (hx : ∀ (k : Fin 8192) (h : 8192 * n + k.val < 524288), x (ix2 k d) = X (ix2 ⟨8192 * n + k.val, h⟩ d)) :
    rowsSq x d = blockSq X d n := by
  unfold blockSq rowsSq
  rw [Finset.sum_range]
  refine Finset.sum_congr rfl fun k _ => ?_
  have h : 8192 * n + k.val < 524288 := by have := k.isLt; omega
  unfold sqAt
  rw [dif_pos h, hx k h]

/-- The sum of column `d`'s squares over the rows of the array, as a sum over a range. -/
theorem colSq_of_rows (X : Mat) (d : Fin 256) : ∑ R : Fin 524288, X (ix2 R d) * X (ix2 R d) = colSq X d := by
  unfold colSq
  rw [Finset.sum_range]
  exact Finset.sum_congr rfl fun R _ => (sqAt_row X d R).symm

/-- THE RESULT both programs compute: every entry times the reciprocal square root of its column's sum of squares. -/
def scaled (X : Mat) : Mat := fun i => X i * Ideal.rsqrt (colSq X (i 1 : Fin 256))

/-- At row `R`, column `d`. -/
theorem scaled_apply (X : Mat) (R : Fin 524288) (d : Fin 256) :
    scaled X (ix2 R d) = X (ix2 R d) * Ideal.rsqrt (colSq X d) := rfl

/-! ## The two halves kept apart, as the two-pass program keeps them -/

/-- An array of two rows of 256: one sum per half of the rows and per column. -/
abbrev Parts : Type := (⟨3, ![2, 1, 256]⟩ : Shape).Idx → EReal

/-- Every entry of `X` times the reciprocal square root of the sum of the two rows of `P` at its column. -/
def scaledBy (X : Mat) (P : Parts) : Mat :=
  fun i => X i * Ideal.rsqrt (P (ix3 (0 : Fin 2) (0 : Fin 1) (i 1 : Fin 256)) + P (ix3 (1 : Fin 2) (0 : Fin 1) (i 1 : Fin 256)))

/-- The two halves' sums of squares of `X`: row `k` holds, per column, the block sums of blocks `32 k … 32 k + 31` added. -/
def halves (X : Mat) : Parts := fun j => halfSq X (j 2 : Fin 256) (32 * (j 0).val)

/-- With `P` the two halves' sums, the two rows add up to the column's total: the result is `scaled`. -/
theorem scaledBy_halves (X : Mat) : scaledBy X (halves X) = scaled X := by
  funext i
  show X i * Ideal.rsqrt (halfSq X (i 1 : Fin 256) 0 + halfSq X (i 1 : Fin 256) 32) = X i * Ideal.rsqrt (colSq X (i 1 : Fin 256))
  exact congrArg (fun s => X i * Ideal.rsqrt s) (halves_add X (i 1))

end Cert.ColScale

end
-- ==== Proof.ColSqValue.lean ====
/-
  The first pass: what the [2, 1, 256] array of sums ends holding, as a function of the matrix it reads.

  The pass walks the 524288 rows in 64 blocks of 8192 rows, point `t` reading block `t`. Its output block is one row of 256
  sums; points 0–31 share the first row, points 32–63 the second. At the first point of each run of 32 the body stores
  zeros into the row and then adds the block's column sums of squares into it; at every later point it adds the block's
  column sums of squares into what the point before left. The row is written back to the array after the last point
  of its run only.
  So what the row holds after a point is a fold along its run (`outsAt_fold`: the reset at the run's first point, a step at
  each later one, for any float values), and at the ideal instance the fold, read at a column `d`, is zero plus the sum
  over the run's points so far of the block sums `ColScale.blockSq X d n` (`fold_apply`; a block's column sum of squares
  is the sum over its 8192 rows of the entry times itself, `acc_pay_apply`, and row `k` of block `n` is row `8192 n + k`
  of the matrix, `rows_block`). At the run's last point that is the half's sum `ColScale.halfSq`; the two write-backs
  cover the array's two rows, so the array ends at `ColScale.halves X` (`result`).
  Everything is stated at a parameter `V`, the buffers' contents when the pass is entered.
-/
import proofs.«161917_j38027640438785_2_alg».proof.Proof.Gen.KernelIdeal.Frame
import proofs.«161917_j38027640438785_2_alg».proof.Proof.Spec
import Idealize.ShloMosaic.Lib.Pipeline.Value
import Idealize.ShloMosaic.Lib.ValueLayout
import Idealize.ShloMosaic.PureOps.Ideal.Laws
import Idealize.ShloMosaic.Lib.Tactic

noncomputable section

namespace Cert.KernelIdeal.ColSq

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in the row, for any float values -/

section AnyInstance

variable {F : FTy → Type} [FloatOps F]

/-- At the first point of a run the body stores the zero row, reads it back and leaves the zero row plus the block's
    column sums of squares: the adding store's value over the block `x` (loaded twice) and the zero row. -/
theorem first_leaves (c : Dev nD) (i : grid0.Coords) (a2 : Memref sig .tc .vmem S8192x256 .f32) (h2 : a2.IsWhole)
    (a3 : Memref sig .tc .vmem S1x1x256 .f32) (h3 : a3.IsWhole) (hc : cond0_0 i) (x : Vec F S8192x256 .f32) :
    out0_A_1 c i a2 h2 a3 h3 hc x = k0_pay2 x x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x1x256) hz3, View.readCov_unit_zero (S := S1x1x256) _ hz3]
  simp only [View.readAt_eq_ld, h2.read_unread, View.ld_unit_zero (S := S8192x256) hz2]

/-- At a later point the body leaves what the row held, `xo`, plus the block's column sums of squares. -/
theorem later_leaves (c : Dev nD) (i : grid0.Coords) (a2 : Memref sig .tc .vmem S8192x256 .f32) (h2 : a2.IsWhole)
    (a3 : Memref sig .tc .vmem S1x1x256 .f32) (h3 : a3.IsWhole) (hc : ¬cond0_0 i) (x : Vec F S8192x256 .f32)
    (xo : Vec F S1x1x256 .f32) :
    out0_B_1 c i a2 h2 a3 h3 hc x xo = k0_pay2 x x xo := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S8192x256) hz2,
    View.ld_unit_zero (S := S1x1x256) hz3]

variable (V : (c : Dev nD) → (b : Ref sig .tc) → Buf (Elt F) ((c : Thread nD τ).loc b))

/-- The row after the first point `n` of a run: the zero row plus block `n`'s column sums of squares. -/
def resetTo (c : Dev nD) (n : ℕ) (h : n < cfg0.N) : Vec F S1x1x256 .f32 :=
  k0_pay2 (iblk0 V c 0 ⟨n, h⟩) (iblk0 V c 0 ⟨n, h⟩) (k0_pay1 (F := F))

/-- The row after a later point `n`, from what the point before left: that plus block `n`'s column sums of squares. -/
def stepTo (c : Dev nD) (n : ℕ) (h : n < cfg0.N) (acc : Vec F S1x1x256 .f32) : Vec F S1x1x256 .f32 :=
  k0_pay2 (iblk0 V c 0 ⟨n, h⟩) (iblk0 V c 0 ⟨n, h⟩) acc

/-- At the multiples of 32 the row restarts … -/
theorem outsAt_reset (c : Dev nD) (n : ℕ) (h : n < cfg0.N) (h0 : n % 32 = 0) :
    outsAt0 V c n h = resetTo V c n h :=
  (outsAt0_A V c ⟨n, h⟩ h0).trans (first_leaves c _ _ _ _ _ _ _)

/-- … and at every other point it steps from the point before. -/
theorem outsAt_step (c : Dev nD) (n : ℕ) (h : n + 1 < cfg0.N) (h0 : ¬(n + 1) % 32 = 0) :
    outsAt0 V c (n + 1) h = stepTo V c (n + 1) h (outsAt0 V c n (Nat.lt_of_succ_lt h)) :=
  (outsAt0_B V c ⟨n + 1, h⟩ h0).trans (later_leaves c _ _ _ _ _ _ _ _)

/-- So after point `t` the row holds the fold along `t`'s run, from the run's first point `32 (t / 32)` to `t`. -/
theorem outsAt_fold (c : Dev nD) (t : ℕ) (ht : t < cfg0.N) (h' : 32 * (t / 32) + t % 32 < cfg0.N) :
    outsAt0 V c t ht = Pipeline.accAt (resetTo V c) (stepTo V c) (32 * (t / 32)) (t % 32) h' :=
  Pipeline.eq_accAt_of_mod (outsAt0 V c) 32 (resetTo V c) (stepTo V c)
    (fun n h h0 => outsAt_reset V c n h h0) (fun n h h0 => outsAt_step V c n h h0) (by decide) t ht h'

end AnyInstance

/-! ## At the ideal instance: the fold read at a column -/

/-- A sum down the rows of a block of 8192 rows, read at column `d`. -/
theorem colsum_apply (v : FVec Ideal S8192x256 .f32) (h : S8192x256.Reduces [0] S256) (hφ : FKind.Formats .f32)
    (hacc : (0x00000000#32 : BitVec 32) = FKind.add.neutral .f32 hφ) (d : Fin 256) :
    multiReduction .add [0] S256 v 0x00000000#32 h hφ hacc (ix1 d) = ∑ k : Fin 8192, v (ix2 k d) :=
  (Ideal.multiReduction_add_single v _ h hφ hacc (ix1 d)).trans
    (Finset.sum_congr rfl fun k _ => congrArg v (funext fun a => Fin.ext (by
      match a with
      | ⟨0, _⟩ => rfl
      | ⟨1, _⟩ => rfl)))

/-- The adding store's value at column `d`: what the row held there plus the sum over the block's rows of the entry
    times itself. -/
theorem acc_pay_apply (x : FVec Ideal S8192x256 .f32) (acc : FVec Ideal S1x1x256 .f32) (u v : Fin 1) (d : Fin 256) :
    k0_pay2 x x acc (ix3 u v d) = acc (ix3 u v d) + ColScale.rowsSq x d := by
  unfold k0_pay2
  show shapeCast S1x1x256 acc _ (ix3 u v d)
      + shapeCast S1x1x256 (shapeCast S1x256 (multiReduction .add [0] S256 (mulf x x) 0x00000000#32 _ _ _) _) _ (ix3 u v d) = _
  refine congrArg₂ (· + ·) (congrFun (shapeCast_self acc _) _) ?_
  refine (shapeCast_ab_1ab_apply _ _ u v d).trans ?_
  refine (shapeCast_a_1a_apply _ _ v d).trans ?_
  exact colsum_apply (mulf x x) _ _ _ d

variable (V : (c : Dev nD) → (b : Ref sig .tc) → Buf (Elt Ideal) ((c : Thread nD τ).loc b))

/-- The printed index maps over the 64 points: the rows' window is at block `t`, column block 0; the row of sums is row
    `t / 32` of the array. -/
theorem idx_facts : ∀ t : Fin cfg0.N, win0_0.index t (0 : Fin 2) = t.val ∧ win0_0.index t (1 : Fin 2) = 0
    ∧ win0_1.index t (0 : Fin 3) = t.val / 32 ∧ win0_1.index t (1 : Fin 3) = 0 ∧ win0_1.index t (2 : Fin 3) = 0 :=
  (by decide +kernel : ∀ t : Fin grid0.N, _)

/-- An index of a row of sums is its column (the two leading coordinates range over one value). -/
theorem part_coords (j : S1x1x256.Idx) : ∃ (u v : Fin 1) (d : Fin 256), j = ix3 u v d := ⟨j 0, j 1, j 2, eq_ix3 j⟩

/-- Row `k` of the block read at point `t` is row `8192 t + k` of the matrix. -/
theorem rows_block (c : Dev nD) (t : Fin cfg0.N) (k : Fin 8192) (d : Fin 256) (h : 8192 * t.val + k.val < 524288) :
    iblk0 V c 0 t (ix2 k d) = V c main_arg0 (ix2 ⟨8192 * t.val + k.val, h⟩ d) := by
  obtain ⟨e0, e1, -⟩ := idx_facts t
  unfold iblk0
  show V c main_arg0 (((cfg0.win 0).blk t).view.emb (ix2 k d)) = _
  refine congrArg (V c main_arg0) (funext fun a => Fin.ext ?_)
  match a with
  | ⟨0, _⟩ => show win0_0.index t (0 : Fin 2) * 8192 + 1 * k.val = 8192 * t.val + k.val; rw [e0]; omega
  | ⟨1, _⟩ => show win0_0.index t (1 : Fin 2) * 256 + 1 * d.val = d.val; rw [e1]; omega

/-- So the sum over the rows of the block at point `n` of the entry times itself, at column `d`, is block `n`'s sum. -/
theorem block_sum (c : Dev nD) (n : ℕ) (h : n < cfg0.N) (d : Fin 256) :
    ColScale.rowsSq (iblk0 V c 0 ⟨n, h⟩) d = ColScale.blockSq (V c main_arg0) d n :=
  ColScale.blockSq_of_rows (V c main_arg0) d n (by have : cfg0.N = 64 := N_0; omega) (iblk0 V c 0 ⟨n, h⟩)
    (fun k hk => rows_block V c ⟨n, h⟩ k d hk)

/-- What point `n` adds to the row, as a function of every natural `n` and of the row's index. -/
def addend (X : ColScale.Mat) (n : ℕ) : S1x1x256.Idx → EReal := fun i => ColScale.blockSq X (i 2 : Fin 256) n

/-- The restart, read at an index: zero plus the point's addend. -/
theorem reset_apply (c : Dev nD) (n : ℕ) (h : n < cfg0.N) (i : S1x1x256.Idx) :
    resetTo V c n h i = Ideal.ofBits .f32 0x00000000#32 + addend (V c main_arg0) n i := by
  obtain ⟨u, v, d, rfl⟩ := part_coords i
  unfold resetTo
  refine (acc_pay_apply _ _ u v d).trans ?_
  exact congrArg₂ (· + ·) rfl (block_sum V c n h d)

/-- The step, read at an index: what the row held plus the point's addend. -/
theorem step_apply (c : Dev nD) (n : ℕ) (h : n < cfg0.N) (acc : S1x1x256.Idx → EReal) (i : S1x1x256.Idx) :
    stepTo V c n h acc i = acc i + addend (V c main_arg0) n i := by
  obtain ⟨u, v, d, rfl⟩ := part_coords i
  unfold stepTo
  refine (acc_pay_apply _ _ u v d).trans ?_
  exact congrArg₂ (· + ·) rfl (block_sum V c n h d)

/-- THE FOLD at an index: zero plus the addends of the run's points so far. -/
theorem fold_apply (c : Dev nD) (b j : ℕ) (hj : j ≤ 31) (h : b + j < cfg0.N) (i : S1x1x256.Idx) :
    Pipeline.accAt (resetTo V c) (stepTo V c) b j h i
      = Ideal.ofBits .f32 0x00000000#32 + ∑ s ∈ Finset.range (j + 1), addend (V c main_arg0) (b + s) i :=
  Pipeline.accAt_add_apply (resetTo V c) (stepTo V c) (fun _ => Ideal.ofBits .f32 0x00000000#32)
    (addend (V c main_arg0)) b 31 (fun h i => reset_apply V c b h i)
    (fun n h acc i _ _ => step_apply V c n h acc i) j hj h i

/-! ## What a point writes back, the cover, and the array after the pass -/

/-- The row written at point `t` is row `t / 32` of the array of sums. -/
theorem out_emb (t : Fin cfg0.N) (u v : Fin 1) (d : Fin 256) (h : t.val / 32 < 2) :
    ((cfg0.win 1).blk t).view.emb (ix3 u v d) = (ix3 ⟨t.val / 32, h⟩ (0 : Fin 1) d : S2x1x256.Idx) := by
  obtain ⟨-, -, e2, e3, e4⟩ := idx_facts t
  have hu := u.isLt
  have hv := v.isLt
  funext a
  apply Fin.ext
  match a with
  | ⟨0, _⟩ => show win0_1.index t (0 : Fin 3) * 1 + 1 * u.val = t.val / 32; rw [e2]; omega
  | ⟨1, _⟩ => show win0_1.index t (1 : Fin 3) * 1 + 1 * v.val = 0; rw [e3]; omega
  | ⟨2, _⟩ => show win0_1.index t (2 : Fin 3) * 256 + 1 * d.val = d.val; rw [e4]; omega

/-- WHAT A WRITE-BACK WRITES: at the last point of a run, the run's row of the two halves' sums. -/
theorem flushed_eq (c : Dev nD) (t : Fin cfg0.N) (hf : (cfg0.win 1).flush t = true) :
    (dat0 V c).flushed 1 t = ((cfg0.win 1).blk t).view.read (Elt Ideal) (ColScale.halves (V c main_arg0)) := by
  have hN : cfg0.N = 64 := N_0
  have h31 : t.val % 32 = 31 := (flush0_1 t).mp hf
  have hlt := t.isLt
  have h' : 32 * (t.val / 32) + t.val % 32 < cfg0.N := by omega
  show (cfg0.win 1).cut (grid0.coords t) ((dat0 V c).after 1 t) = _
  rw [after0_1, outsAt_fold V c t.val t.isLt h']
  funext j
  obtain ⟨u, v, d, rfl⟩ := part_coords j
  show Pipeline.accAt (resetTo V c) (stepTo V c) (32 * (t.val / 32)) (t.val % 32) h' (ix3 u v d)
    = ColScale.halves (V c main_arg0) (((cfg0.win 1).blk t).view.emb (ix3 u v d))
  rw [fold_apply V c (32 * (t.val / 32)) (t.val % 32) (by omega) h' (ix3 u v d), out_emb t u v d (by omega), h31]
  show Ideal.ofBits .f32 0x00000000#32
      + ∑ s ∈ Finset.range 32, ColScale.blockSq (V c main_arg0) d (32 * (t.val / 32) + s)
    = ColScale.halfSq (V c main_arg0) d (32 * (t.val / 32))
  rw [Ideal.ofBits_zero_f32, zero_add]
  rfl

/-- An index of the array of sums is in point `t`'s row iff each coordinate is in the row's range on its axis. -/
theorem mem_blk (t : Fin cfg0.N) (i : S2x1x256.Idx) :
    i ∈ ((cfg0.win 1).blk t).view.set ↔ ∀ a : Fin 3, win0_1.index t a * S1x1x256.size a ≤ (i a).val
      ∧ (i a).val < win0_1.index t a * S1x1x256.size a + S1x1x256.size a := by
  show i ∈ ((View.whole main_v0).slice (win0_1.rect t)).set ↔ _
  rw [View.set_slice_whole, Rect.mem_set_unit]
  exact Iff.rfl

/-- Row `k` of the array is written back at the last point `32 k + 31` of run `k`. -/
theorem cover (i : S2x1x256.Idx) :
    ∃ t : Fin cfg0.N, (cfg0.win 1).flush t = true ∧ i ∈ ((cfg0.win 1).blk t).view.set := by
  have hN : cfg0.N = 64 := N_0
  have hi0 : (i 0).val < 2 := (i 0).isLt
  have hi1 : (i 1).val < 1 := (i 1).isLt
  have hi2 : (i 2).val < 256 := (i 2).isLt
  obtain ⟨t, ht⟩ : ∃ t : Fin cfg0.N, t.val = 32 * (i 0).val + 31 := ⟨⟨32 * (i 0).val + 31, by omega⟩, rfl⟩
  obtain ⟨-, -, e2, e3, e4⟩ := idx_facts t
  refine ⟨t, (flush0_1 t).mpr (by omega), ?_⟩
  rw [mem_blk]
  intro a
  match a with
  | ⟨0, _⟩ =>
    show win0_1.index t (0 : Fin 3) * 1 ≤ (i 0).val ∧ (i 0).val < win0_1.index t (0 : Fin 3) * 1 + 1
    rw [e2]; omega
  | ⟨1, _⟩ =>
    show win0_1.index t (1 : Fin 3) * 1 ≤ (i 1).val ∧ (i 1).val < win0_1.index t (1 : Fin 3) * 1 + 1
    rw [e3]; omega
  | ⟨2, _⟩ =>
    show win0_1.index t (2 : Fin 3) * 256 ≤ (i 2).val ∧ (i 2).val < win0_1.index t (2 : Fin 3) * 256 + 256
    rw [e4]; omega

/-- THE ARRAY OF SUMS AFTER THE PASS: the two halves' sums of squares of the matrix the pass found. -/
theorem result (c : Dev nD) : (dat0 V c).arrAt 1 cfg0.N = ColScale.halves (V c main_arg0) :=
  (dat0 V c).arrAt_eq_of_cover 1 _ (fun t hf => flushed_eq V c t hf) cover

end Cert.KernelIdeal.ColSq

end
-- ==== Proof.ScaleValue.lean ====
/-
  The second pass, at the ideal instance: what the array it writes ends holding, as one function of the two arrays it reads.

  The pass walks the 524288 rows in 128 blocks of 4096 rows. At every block it reads the block's rows of the
  matrix `X` and the whole [2, 1, 256] array `P` of the two halves' sums, and writes back, at row `r` and column `d` of
  the block, `X · rsqrt (P[0,0,d] + P[1,0,d])`: the two rows of `P` are read separately, added, the reciprocal square
  root taken over the 256 columns and the one resulting row laid over the 4096 rows of the block.
  Row `r` of block `t` is row `4096 t + r` of the matrix, in the block read and in the block written alike, and `P`'s block is
  all of `P` at every point; so what point `t` writes back is block `t` of `ColScale.scaledBy X P`. The 128 blocks
  cover every row, so that function is what the array holds after the pass (`result`).
  Everything is stated at a parameter `V`, the buffers' contents when the pass is entered.
-/
import proofs.«161917_j38027640438785_2_alg».proof.Proof.Gen.KernelIdeal.Frame
import proofs.«161917_j38027640438785_2_alg».proof.Proof.Spec
import Idealize.ShloMosaic.Lib.Pipeline.Value
import Idealize.ShloMosaic.Lib.ValueLayout
import Idealize.ShloMosaic.PureOps.Ideal.Laws

noncomputable section

namespace Cert.KernelIdeal.Scale

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-! ## One entry of what the body stores -/

/-- The load of the first of the two rows of sums reads row 0 … -/
theorem ld_first (p : Vec Ideal S2x1x256 .f32) (d : Fin 256) :
    View.ld (Val := Elt Ideal) p r1_0 (ix3 (0 : Fin 1) (0 : Fin 1) d) = p (ix3 (0 : Fin 2) (0 : Fin 1) d) := by
  show p (r1_0.idx (ix3 (0 : Fin 1) (0 : Fin 1) d)) = _
  refine congrArg p (funext fun a => Fin.ext ?_)
  match a with
  | ⟨0, _⟩ => rfl
  | ⟨1, _⟩ => rfl
  | ⟨2, _⟩ => show 0 + 1 * d.val = d.val; omega

/-- … and the load of the second reads row 1. -/
theorem ld_second (p : Vec Ideal S2x1x256 .f32) (d : Fin 256) :
    View.ld (Val := Elt Ideal) p r1_1 (ix3 (0 : Fin 1) (0 : Fin 1) d) = p (ix3 (1 : Fin 2) (0 : Fin 1) d) := by
  show p (r1_1.idx (ix3 (0 : Fin 1) (0 : Fin 1) d)) = _
  refine congrArg p (funext fun a => Fin.ext ?_)
  match a with
  | ⟨0, _⟩ => rfl
  | ⟨1, _⟩ => rfl
  | ⟨2, _⟩ => show 0 + 1 * d.val = d.val; omega

/-- The stored value at row `r`, column `d` of the block: the block's entry times the reciprocal square root of the sum of the
    two loaded rows at column `d`. -/
theorem pay_apply (p0 p1 : FVec Ideal S1x1x256 .f32) (x : FVec Ideal S4096x256 .f32) (r : Fin 4096) (d : Fin 256) :
    k1_pay1 p0 p1 x (ix2 r d)
      = x (ix2 r d) * Ideal.rsqrt (p0 (ix3 (0 : Fin 1) (0 : Fin 1) d) + p1 (ix3 (0 : Fin 1) (0 : Fin 1) d)) := by
  unfold k1_pay1
  show x (ix2 r d) * broadcastTo S4096x256 (rsqrt (addf (shapeCast S1x256 p0 _) (shapeCast S1x256 p1 _))) _ (ix2 r d) = _
  refine congrArg (x (ix2 r d) * ·) ?_
  refine (broadcastTo_1b_ab_apply _ _ r d).trans ?_
  show Ideal.rsqrt (shapeCast S1x256 p0 _ (ix2 (0 : Fin 1) d) + shapeCast S1x256 p1 _ (ix2 (0 : Fin 1) d)) = _
  exact congrArg Ideal.rsqrt
    (congrArg₂ (· + ·) (shapeCast_1ab_ab_apply p0 _ (0 : Fin 1) d) (shapeCast_1ab_ab_apply p1 _ (0 : Fin 1) d))

/-- So, for a block `x` of rows whose row `r` is row `R` of `X`, and a block `p` that agrees with `P` in both rows at column `d`,
    the stored value at `(r, d)` is the result at `(R, d)`. -/
theorem point_value (X : ColScale.Mat) (P : ColScale.Parts) (x : Vec Ideal S4096x256 .f32) (p : Vec Ideal S2x1x256 .f32)
    (r : Fin 4096) (d : Fin 256) (R : Fin 524288) (hx : x (ix2 r d) = X (ix2 R d))
    (hp0 : p (ix3 (0 : Fin 2) (0 : Fin 1) d) = P (ix3 (0 : Fin 2) (0 : Fin 1) d))
    (hp1 : p (ix3 (1 : Fin 2) (0 : Fin 1) d) = P (ix3 (1 : Fin 2) (0 : Fin 1) d)) :
    k1_pay1 (View.ld (Val := Elt Ideal) p r1_0) (View.ld (Val := Elt Ideal) p r1_1) (View.ld (Val := Elt Ideal) x r1_2) (ix2 r d) = ColScale.scaledBy X P (ix2 R d) := by
  refine (pay_apply _ _ _ r d).trans ?_
  rw [ld_first, ld_second, View.ld_unit_zero (S := S4096x256) hz2, hx, hp0, hp1]
  rfl

/-! ## The blocks at a point -/

variable (V : (c : Dev nD) → (b : Ref sig .tc) → Buf (Elt Ideal) ((c : Thread nD τ).loc b))

/-- The printed index maps over the 128 points: the rows' windows (read and written) are at block `t`, column block 0; the
    window of the two sums is at block (0, 0, 0) throughout. -/
theorem idx_facts : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 3) = 0 ∧ win1_1.index t (1 : Fin 3) = 0 ∧ win1_1.index t (2 : Fin 3) = 0 :=
  (by decide +kernel : ∀ t : Fin grid1.N, _)

/-- An index of a block of rows is a row and a column of it. -/
theorem block_coords (j : S4096x256.Idx) : ∃ (r : Fin 4096) (d : Fin 256), j = ix2 r d := ⟨j 0, j 1, eq_ix2 j⟩

/-- Row `r` of the block read at point `t` is row `4096 t + r` of the matrix. -/
theorem rows_block (c : Dev nD) (t : Fin cfg1.N) (r : Fin 4096) (d : Fin 256) (h : 4096 * t.val + r.val < 524288) :
    iblk1 V c 0 t (ix2 r d) = V c main_arg0 (ix2 ⟨4096 * t.val + r.val, h⟩ d) := by
  obtain ⟨e0, e1, -⟩ := idx_facts t
  unfold iblk1
  show V c main_arg0 (((cfg1.win 0).blk t).view.emb (ix2 r d)) = _
  refine congrArg (V c main_arg0) (funext fun a => Fin.ext ?_)
  match a with
  | ⟨0, _⟩ => show win1_0.index t (0 : Fin 2) * 4096 + 1 * r.val = 4096 * t.val + r.val; rw [e0]; omega
  | ⟨1, _⟩ => show win1_0.index t (1 : Fin 2) * 256 + 1 * d.val = d.val; rw [e1]; omega

/-- The block of the two sums is the whole array of them, at every point. -/
theorem parts_block (c : Dev nD) (t : Fin cfg1.N) (k : Fin 2) (d : Fin 256) :
    iblk1 V c 1 t (ix3 k (0 : Fin 1) d) = V c main_v0 (ix3 k (0 : Fin 1) d) := by
  obtain ⟨-, -, -, -, e4, e5, e6⟩ := idx_facts t
  unfold iblk1
  show V c main_v0 (((cfg1.win 1).blk t).view.emb (ix3 k (0 : Fin 1) d)) = _
  refine congrArg (V c main_v0) (funext fun a => Fin.ext ?_)
  match a with
  | ⟨0, _⟩ => show win1_1.index t (0 : Fin 3) * 2 + 1 * k.val = k.val; rw [e4]; omega
  | ⟨1, _⟩ => show win1_1.index t (1 : Fin 3) * 1 + 1 * 0 = 0; rw [e5]
  | ⟨2, _⟩ => show win1_1.index t (2 : Fin 3) * 256 + 1 * d.val = d.val; rw [e6]; omega

/-- Row `r` of the block written at point `t` is row `4096 t + r` of the result array. -/
theorem out_emb (t : Fin cfg1.N) (r : Fin 4096) (d : Fin 256) (h : 4096 * t.val + r.val < 524288) :
    ((cfg1.win 2).blk t).view.emb (ix2 r d) = (ix2 ⟨4096 * t.val + r.val, h⟩ d : S524288x256.Idx) := by
  obtain ⟨-, -, e2, e3, -⟩ := idx_facts t
  funext a
  apply Fin.ext
  match a with
  | ⟨0, _⟩ => show win1_2.index t (0 : Fin 2) * 4096 + 1 * r.val = 4096 * t.val + r.val; rw [e2]; omega
  | ⟨1, _⟩ => show win1_2.index t (1 : Fin 2) * 256 + 1 * d.val = d.val; rw [e3]; omega

/-! ## What a point writes back, the cover, and the array after the pass -/

/-- WHAT POINT `t` WRITES BACK is block `t` of the result function of the two arrays as the pass finds them. -/
theorem flushed_eq (c : Dev nD) (t : Fin cfg1.N) :
    (dat1 V c).flushed 2 t
      = ((cfg1.win 2).blk t).view.read (Elt Ideal) (ColScale.scaledBy (V c main_arg0) (V c main_v0)) := by
  have hN : cfg1.N = 128 := N_1
  show (cfg1.win 2).cut (grid1.coords t) ((dat1 V c).after 2 t) = _
  rw [after1_2]
  unfold out1_2
  rw [View.canon_unit_zero hz2]
  funext j
  obtain ⟨r, d, rfl⟩ := block_coords j
  have hlt : 4096 * t.val + r.val < 524288 := by have := t.isLt; have := r.isLt; omega
  show k1_pay1 (View.ld (iblk1 V c 1 t) r1_0) (View.ld (iblk1 V c 1 t) r1_1) (View.ld (iblk1 V c 0 t) r1_2) (ix2 r d)
    = ColScale.scaledBy (V c main_arg0) (V c main_v0) (((cfg1.win 2).blk t).view.emb (ix2 r d))
  rw [out_emb t r d hlt]
  exact point_value (V c main_arg0) (V c main_v0) (iblk1 V c 0 t) (iblk1 V c 1 t) r d ⟨4096 * t.val + r.val, hlt⟩
    (rows_block V c t r d hlt) (parts_block V c t 0 d) (parts_block V c t 1 d)

/-- An index of the array is in point `t`'s block iff each coordinate is in the block's range on its axis. -/
theorem mem_blk (t : Fin cfg1.N) (i : S524288x256.Idx) :
    i ∈ ((cfg1.win 2).blk t).view.set ↔ ∀ a : Fin 2, win1_2.index t a * S4096x256.size a ≤ (i a).val
      ∧ (i a).val < win1_2.index t a * S4096x256.size a + S4096x256.size a := by
  show i ∈ ((View.whole main_v1).slice (win1_2.rect t)).set ↔ _
  rw [View.set_slice_whole, Rect.mem_set_unit]
  exact Iff.rfl

/-- Every row lies in the block of the point `row / 4096`, and every point writes its block back. -/
theorem cover (i : S524288x256.Idx) :
    ∃ t : Fin cfg1.N, (cfg1.win 2).flush t = true ∧ i ∈ ((cfg1.win 2).blk t).view.set := by
  have hN : cfg1.N = 128 := N_1
  have hi0 : (i 0).val < 524288 := (i 0).isLt
  have hi1 : (i 1).val < 256 := (i 1).isLt
  obtain ⟨t, ht⟩ : ∃ t : Fin cfg1.N, t.val = (i 0).val / 4096 := ⟨⟨(i 0).val / 4096, by omega⟩, rfl⟩
  obtain ⟨-, -, e2, e3, -⟩ := idx_facts t
  refine ⟨t, flush1_2 t, ?_⟩
  rw [mem_blk]
  intro a
  match a with
  | ⟨0, _⟩ =>
    show win1_2.index t (0 : Fin 2) * 4096 ≤ (i 0).val ∧ (i 0).val < win1_2.index t (0 : Fin 2) * 4096 + 4096
    rw [e2]; omega
  | ⟨1, _⟩ =>
    show win1_2.index t (1 : Fin 2) * 256 ≤ (i 1).val ∧ (i 1).val < win1_2.index t (1 : Fin 2) * 256 + 256
    rw [e3]; omega

/-- THE ARRAY AFTER THE PASS: the result function of the two arrays the pass found. -/
theorem result (c : Dev nD) :
    (dat1 V c).arrAt 2 cfg1.N = ColScale.scaledBy (V c main_arg0) (V c main_v0) :=
  (dat1 V c).arrAt_eq_of_cover 2 _ (fun t _ => flushed_eq V c t) cover

end Cert.KernelIdeal.Scale

end
-- ==== Proof.KernelValue.lean ====
/-
  The two-pass program's result at the ideal instance.

  The first pass leaves the two halves' sums of squares of the argument's columns; the second pass, entered with the
  argument unchanged and that array of sums, leaves every entry times the reciprocal square root of the two halves added.
  The two halves add up to the column's whole sum of squares, so the result array ends holding every entry of the argument
  times the reciprocal square root of its column's sum of squares: `run_value`.
-/
import proofs.«161917_j38027640438785_2_alg».proof.Proof.KernelRun
import proofs.«161917_j38027640438785_2_alg».proof.Proof.ColSqValue
import proofs.«161917_j38027640438785_2_alg».proof.Proof.ScaleValue

noncomputable section

namespace Cert.KernelIdeal.Whole

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result array's final contents: every entry of the argument times the reciprocal square root of its column's sum of
    squares. -/
theorem value (c : Dev nD) :
    (dat1 (V1 m ρ) c).arrAt 2 cfg1.N = ColScale.scaled (m ((c : Thread nD τ).loc main_arg0)) :=
  (Scale.result (V1 m ρ) c).trans
    ((congrArg₂ ColScale.scaledBy (entry_arg m ρ c) ((entry_parts m ρ c).trans (ColSq.result (V0 m ρ) c))).trans
      (ColScale.scaledBy_halves _))

/-- THE RUN, READ: the result array at that function of the argument, the argument unchanged. -/
theorem run_value : θ_run defs (onTc (τ := τ) (main (F := Ideal))) ⟨m, fun _ => 0, ρ⟩ (fun r => ∀ c : Dev nD,
      r.2.mem ((c.tc : Thread nD τ).loc main_v1) = ColScale.scaled (m ((c : Thread nD τ).loc main_arg0))
      ∧ r.2.mem ((c.tc : Thread nD τ).loc main_arg0) = m ((c.tc : Thread nD τ).loc main_arg0)) :=
  (θ_run defs _ _).mono (fun r h c => ⟨(h c).1.trans (value m ρ c), (h c).2⟩) (run_named m ρ)

end Cert.KernelIdeal.Whole

end
-- ==== Proof.Reference.lean ====
/-
  The one-pass program's result at the ideal instance.

  It multiplies the matrix by itself entry by entry, adds each column down all 524288 rows starting from zero, takes the
  reciprocal square root of the 256 sums, lays that row over every row of the matrix (first as a [1, 256] array, then as
  a [524288, 256] one) and multiplies the matrix by it. Read at row `R` and column `d`: the entry times the reciprocal
  square root of zero plus the sum over all rows of the column's entries times themselves, that is, of the column's sum
  of squares.
-/
import proofs.«161917_j38027640438785_2_alg».proof.Proof.Gen.ReferenceIdeal.Run
import proofs.«161917_j38027640438785_2_alg».proof.Proof.Spec
import Idealize.ShloMosaic.Lib.Pipeline.Value
import Idealize.ShloMosaic.PureOps.Ideal.Laws

noncomputable section

namespace Cert.ReferenceIdeal.Whole

open Cert.ReferenceIdeal Cert.ReferenceIdeal.Gen Idealize.ShloMosaic Idealize.ShloMosaic.TcCoe Idealize.SL.Sem
open Idealize.ShloMosaic.ValueIdx

/-- The sum down all rows from zero, read at column `d`, of the matrix times itself: the column's sum of squares. -/
theorem colsum_apply (X : FVec Ideal S524288x256 .f32) (h' : S524288x256.ReducesTo [0] S256) (hu : 0 < S_.numel)
    (d : Fin 256) :
    Host.reduceAdd (F := Ideal) (mulf X X) (constant S_ .f32 0x00000000#32) h' hu (ix1 d) = ColScale.colSq X d := by
  have h : S524288x256.Reduces [0] S256 := by decide
  refine (Ideal.hostReduceAdd_single h' h (mulf X X) _ (ix1 d)).trans ?_
  rw [← ColScale.colSq_of_rows]
  show Ideal.ofBits .f32 0x00000000#32 + _ = _
  rw [Ideal.ofBits_zero_f32, zero_add]
  refine Finset.sum_congr rfl fun R _ => ?_
  have e : h.lift (ix1 d) R = ix2 R d := funext fun a => Fin.ext (by
    match a with
    | ⟨0, _⟩ => rfl
    | ⟨1, _⟩ => rfl)
  show X (h.lift (ix1 d) R) * X (h.lift (ix1 d) R) = _
  rw [e]
  rfl

/-- A row of 256 laid over 524288 rows reads, at any row, the one row. -/
theorem over_rows_apply (v : FVec Ideal S1x256 .f32)
    (h : S1x256.BroadcastsInDim S524288x256 (![0, 1] : Fin 2 → Fin S524288x256.rank)) (R : Fin 524288) (d : Fin 256) :
    broadcastInDim S524288x256 ![0, 1] h v (ix2 R d) = v (ix2 (0 : Fin 1) d) :=
  broadcastInDim_apply _ h v (ix2 R d) (ix2 (0 : Fin 1) d) fun a => by
    match a with
    | ⟨0, _⟩ => rfl
    | ⟨1, _⟩ => rfl

/-- 256 values made a [1, 256] array read, in its one row, the value at the column. -/
theorem as_row_apply (v : FVec Ideal S256 .f32)
    (h : S256.BroadcastsInDim S1x256 (![1] : Fin 1 → Fin S1x256.rank)) (u : Fin 1) (d : Fin 256) :
    broadcastInDim S1x256 ![1] h v (ix2 u d) = v (ix1 d) :=
  broadcastInDim_apply _ h v (ix2 u d) (ix1 d) fun a => by
    match a with
    | ⟨0, _⟩ => rfl

/-- THE PROGRAM'S RESULT TERM is every entry times the reciprocal square root of its column's sum of squares. -/
theorem result_eq (X : FVec Ideal S524288x256 .f32) :
    mulf X (broadcastInDim S524288x256 ![0, 1] bcast_S1x256_S524288x256_0_1
        (broadcastInDim S1x256 ![1] bcast_S256_S1x256_1
          (Host.rsqrt (Host.reduceAdd (mulf X X) (constant S_ .f32 0x00000000#32)
            reducesTo_S524288x256_S256_d0 h_S_))))
      = ColScale.scaled X := by
  funext i
  obtain ⟨R, d, rfl⟩ : ∃ (R : Fin 524288) (d : Fin 256), i = ix2 R d := ⟨i 0, i 1, eq_ix2 i⟩
  rw [ColScale.scaled_apply]
  refine (mulf_apply _ _ _).trans ?_
  refine congrArg (X (ix2 R d) * ·) ?_
  refine (over_rows_apply _ _ R d).trans ?_
  refine (as_row_apply _ _ (0 : Fin 1) d).trans ?_
  have hs := colsum_apply X reducesTo_S524288x256_S256_d0 h_S_ d
  generalize Host.reduceAdd (mulf X X) (constant S_ .f32 0x00000000#32) reducesTo_S524288x256_S256_d0 h_S_ = s at hs ⊢
  rw [← hs]
  rfl

end Cert.ReferenceIdeal.Whole

end
-- ==== Proof.lean ====
/-
  The certificate: a two-pass kernel that scales every column of a [524288, 256] matrix to unit length, against the
  one-pass program that does the same.

  Both compute, at row `R` and column `d`, the entry times the reciprocal square root of the column's sum of squares.
  The one-pass program adds the column's squares down all rows at once. The kernel's first pass cuts the rows into 64
  blocks of 8192, adds each block's squares and accumulates the block sums separately over blocks 0–31 and over blocks
  32–63; its second pass adds the two halves, takes the reciprocal square root and multiplies. Over the extended
  reals addition is commutative and associative, so the two groupings of the same 524288 squares are one number
  (Proof/Spec.lean, `halves_add`), and nothing has to be finite: the precondition is never opened.

  The three programs' runs (termination, no fault, the argument unchanged) are the generated frame certificates of
  the two kernel programs and the generated run of the one-pass program. The idealization rewrote nothing. The kernel's
  result at the ideal instance is read off its run pass by pass (Proof/ColSqValue.lean, Proof/ScaleValue.lean,
  Proof/KernelRun.lean, Proof/KernelValue.lean), the one-pass program's off its run's term (Proof/Reference.lean).
-/
import proofs.«161917_j38027640438785_2_alg».proof.Defs
import proofs.«161917_j38027640438785_2_alg».proof.Proof.Gen.Kernel
import proofs.«161917_j38027640438785_2_alg».proof.Proof.Gen.Kernel.Skeleton
import proofs.«161917_j38027640438785_2_alg».proof.Proof.Gen.Kernel.Launch
import proofs.«161917_j38027640438785_2_alg».proof.Proof.Gen.Kernel.Points
import proofs.«161917_j38027640438785_2_alg».proof.Proof.Gen.Kernel.Frame
import proofs.«161917_j38027640438785_2_alg».proof.Proof.Gen.KernelIdeal
import proofs.«161917_j38027640438785_2_alg».proof.Proof.Gen.KernelIdeal.Skeleton
import proofs.«161917_j38027640438785_2_alg».proof.Proof.Gen.KernelIdeal.Launch
import proofs.«161917_j38027640438785_2_alg».proof.Proof.Gen.KernelIdeal.Points
import proofs.«161917_j38027640438785_2_alg».proof.Proof.Gen.KernelIdeal.Frame
import proofs.«161917_j38027640438785_2_alg».proof.Proof.Gen.ReferenceIdeal
import proofs.«161917_j38027640438785_2_alg».proof.Proof.Gen.ReferenceIdeal.Run
import proofs.«161917_j38027640438785_2_alg».proof.Proof.Gen.Pre_finite_inputs
import proofs.«161917_j38027640438785_2_alg».proof.Proof.KernelValue
import proofs.«161917_j38027640438785_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- So does the one-pass program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories that agree on the argument, both programs end with the result array holding every
    entry of the argument times the reciprocal square root of its column's sum of squares. -/
theorem algebraic : Cert.algebraic_KernelIdeal_ReferenceIdeal := by
  intro m ρ m' ρ' _ hagree
  refine ⟨fun c => Cert.ColScale.scaled (m ((c.tc : Thread Cert.KernelIdeal.nD Cert.KernelIdeal.τ).loc Cert.KernelIdeal.main_arg0)),
    Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Whole.result_eq _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
